-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024x6 : Shape := ⟨3, ![4096, 1024, 6]⟩
abbrev S_ : Shape := ⟨0, ![]⟩

class Facts : Prop where
  bcast_S_S4096x1024x6 : S_.BroadcastsInDim S4096x1024x6 (![] : Fin 0 → Fin S4096x1024x6.rank)
  reducesTo_S4096x1024x6_S_d0_1_2 : S4096x1024x6.ReducesTo [0, 1, 2] S_
  h_S_ : 0 < S_.numel

variable [Facts]

def fn {F : FTy → Type} [FloatOps F] (main_arg0 : FVec F S4096x1024x6 .f32) (main_arg1 : FVec F S4096x1024x6 .f32) : IVec S_ 1 :=
  let main_v0 : FVec F S4096x1024x6 .f32 := Host.absf main_arg0
  let main_cst : FVec F S_ .f32 := constant S_ .f32 0x7F800000#32
  let main_v1 : FVec F S4096x1024x6 .f32 := broadcastInDim S4096x1024x6 ![] bcast_S_S4096x1024x6 main_cst
  let main_v2 : IVec S4096x1024x6 1 := cmpf .olt main_v0 main_v1
  let main_c : IVec S_ 1 := constantI S_ 1 1#1
  let main_v3 : IVec S_ 1 := (fun x v => Host.reduce IntOp.andi x v reducesTo_S4096x1024x6_S_d0_1_2 h_S_) main_v2 main_c
  let main_v4 : FVec F S4096x1024x6 .f32 := Host.absf main_arg1
  let main_cst_0 : FVec F S_ .f32 := constant S_ .f32 0x7F800000#32
  let main_v5 : FVec F S4096x1024x6 .f32 := broadcastInDim S4096x1024x6 ![] bcast_S_S4096x1024x6 main_cst_0
  let main_v6 : IVec S4096x1024x6 1 := cmpf .olt main_v4 main_v5
  let main_c_1 : IVec S_ 1 := constantI S_ 1 1#1
  let main_v7 : IVec S_ 1 := (fun x v => Host.reduce IntOp.andi x v reducesTo_S4096x1024x6_S_d0_1_2 h_S_) main_v6 main_c_1
  let main_v8 : IVec S_ 1 := andi main_v3 main_v7
  main_v8
-- ==== Kernel.lean ====
abbrev S4096x1024x6 : Shape := ⟨3, ![4096, 1024, 6]⟩
abbrev S1x1 : Shape := ⟨2, ![1, 1]⟩
abbrev S8x1024x6 : Shape := ⟨3, ![8, 1024, 6]⟩
abbrev S8x1024x3 : Shape := ⟨3, ![8, 1024, 3]⟩
abbrev S8x1024 : Shape := ⟨2, ![8, 1024]⟩
abbrev S8x1024x1 : Shape := ⟨3, ![8, 1024, 1]⟩
abbrev S8x1 : Shape := ⟨2, ![8, 1]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 15
  | .vmem => 8
  | .smem => 0
  | _ => 0

abbrev bufTy : (tb : Table) → Fin (tcTables nBuf tb) → BufTy
  | .hbm, ⟨0, _⟩ => ⟨S4096x1024x6, .f32⟩
  | .hbm, ⟨1, _⟩ => ⟨S4096x1024x6, .f32⟩
  | .hbm, ⟨2, _⟩ => ⟨S1x1, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8x1024x6, .f32⟩
  | .local _ .vmem, ⟨1, _⟩ => ⟨S8x1024x6, .f32⟩
  | .local _ .vmem, ⟨2, _⟩ => ⟨S8x1024x6, .f32⟩
  | .local _ .vmem, ⟨3, _⟩ => ⟨S8x1024x6, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S4096x1024x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v57 : BitVec 1 := Scalar.cmpi .eq arg0 c511_i32
  let v58 : BitVec 32 := Scalar.extui v57
  let c0_i32_27 : BitVec 32 := 0#32
  let v59 : BitVec 1 := Scalar.cmpi .ne v58 c0_i32_27
  v59

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x1024x6_S8x1024x6_0_0_0 : ∀ a, (![0, 0, 0] : Fin 3 → Nat) a + S8x1024x6.size a ≤ S8x1024x6.size a
  h_S8x1024x6 : 0 < S8x1024x6.numel
  slices_S8x1024x6_o0_0_0_S8x1024x3 : S8x1024x6.Slices ![0, 0, 0] S8x1024x3
  slices_S8x1024x6_o0_0_3_S8x1024x3 : S8x1024x6.Slices ![0, 0, 3] S8x1024x3
  reduces_S8x1024x3_S8x1024 : S8x1024x3.Reduces [2] S8x1024
  shapeCasts_S8x1024_S8x1024x1 : S8x1024.ShapeCasts S8x1024x1
  reduces_S8x1024x1_S8x1 : S8x1024x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1x1_S1x1 : S1x1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x6.size a ≤ S4096x1024x6.size a
  hwx0_0 : ∀ i : grid0.Coords, EltTy.bits .f32 = 32 ∨ (Rect.block (s := S4096x1024x6) S8x1024x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x6.size a ≤ S4096x1024x6.size a
  hwx0_1 : ∀ i : grid0.Coords, EltTy.bits .f32 = 32 ∨ (Rect.block (s := S4096x1024x6) S8x1024x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S8x1024x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x1024x6 : Shape := ⟨3, ![4096, 1024, 6]⟩
abbrev S4096x1024x3 : Shape := ⟨3, ![4096, 1024, 3]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024x6, .f32⟩
  | .hbm, ⟨1, _⟩ => ⟨S4096x1024x6, .f32⟩
  | .hbm, ⟨2, _⟩ => ⟨S4096x1024x3, .f32⟩
  | .hbm, ⟨3, _⟩ => ⟨S_, .f32⟩
  | .hbm, ⟨4, _⟩ => ⟨S4096x1024x3, .f32⟩
  | .hbm, ⟨5, _⟩ => ⟨S4096x1024x3, .i1⟩
  | .hbm, ⟨6, _⟩ => ⟨S_, .f32⟩
  | .hbm, ⟨7, _⟩ => ⟨S4096x1024x3, .f32⟩
  | .hbm, ⟨8, _⟩ => ⟨S4096x1024x3, .f32⟩
  | .hbm, ⟨9, _⟩ => ⟨S4096x1024x3, .f32⟩
  | .hbm, ⟨10, _⟩ => ⟨S_, .f32⟩
  | .hbm, ⟨11, _⟩ => ⟨S_, .f32⟩
  | .hbm, ⟨12, _⟩ => ⟨S4096x1024x3, .f32⟩
  | .hbm, ⟨13, _⟩ => ⟨S4096x1024x3, .i1⟩
  | .hbm, ⟨14, _⟩ => ⟨S_, .f32⟩
  | .hbm, ⟨15, _⟩ => ⟨S4096x1024x3, .f32⟩
  | .hbm, ⟨16, _⟩ => ⟨S4096x1024x3, .f32⟩
  | .hbm, ⟨17, _⟩ => ⟨S4096x1024x3, .f32⟩
  | .hbm, ⟨18, _⟩ => ⟨S4096x1024x3, .f32⟩
  | .hbm, ⟨19, _⟩ => ⟨S_, .f32⟩
  | .hbm, ⟨20, _⟩ => ⟨S4096x1024x3, .f32⟩
  | .hbm, ⟨21, _⟩ => ⟨S4096x1024x3, .i1⟩
  | .hbm, ⟨22, _⟩ => ⟨S_, .f32⟩
  | .hbm, ⟨23, _⟩ => ⟨S4096x1024x3, .f32⟩
  | .hbm, ⟨24, _⟩ => ⟨S4096x1024x3, .f32⟩
  | .hbm, ⟨25, _⟩ => ⟨S4096x1024x3, .f32⟩
  | .hbm, ⟨26, _⟩ => ⟨S_, .f32⟩
  | .hbm, ⟨27, _⟩ => ⟨S_, .f32⟩
  | .hbm, ⟨28, _⟩ => ⟨S4096x1024x3, .f32⟩
  | .hbm, ⟨29, _⟩ => ⟨S4096x1024x3, .i1⟩
  | .hbm, ⟨30, _⟩ => ⟨S_, .f32⟩
  | .hbm, ⟨31, _⟩ => ⟨S4096x1024x3, .f32⟩
  | .hbm, ⟨32, _⟩ => ⟨S4096x1024x3, .f32⟩
  | .hbm, ⟨33, _⟩ => ⟨S4096x1024x3, .f32⟩
  | .hbm, ⟨34, _⟩ => ⟨S4096x1024x3, .f32⟩
  | .hbm, ⟨35, _⟩ => ⟨S4096x1024x3, .f32⟩
  | .hbm, ⟨36, _⟩ => ⟨S4096x1024x3, .f32⟩
  | .hbm, ⟨37, _⟩ => ⟨S4096x1024x3, .f32⟩
  | .hbm, ⟨38, _⟩ => ⟨S4096x1024x3, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x1024x3, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S4096x1024x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_cst_11 : Ref sig .tc := ⟨.hbm, 48, rfl⟩
abbrev main_v34 : Ref sig .tc := ⟨.hbm, 49, rfl⟩
abbrev main_cst_12 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S4096x1024x6_S4096x1024x3_0_0_3 : S4096x1024x6.Slices ![0, 0, 3] S4096x1024x3
  bcast_S_S4096x1024x3 : S_.BroadcastsInDim S4096x1024x3 (![] : Fin 0 → Fin S4096x1024x3.rank)
  slices_S4096x1024x6_S4096x1024x3_0_0_0 : S4096x1024x6.Slices ![0, 0, 0] S4096x1024x3
  reducesTo_S4096x1024x3_S_d0_1_2 : S4096x1024x3.ReducesTo [0, 1, 2] S_
  h_S_ : 0 < S_.numel

variable [Facts₀]

class Facts : Prop extends Facts₀ where

variable [Facts]
-- ==== Proof.Spec.lean ====
/- The weighted pose loss as ONE function of the two argument arrays, on the extended reals.

   The arrays are 4096 sequences of 1024 poses of 6 channels: channels 0-2 a translation, channels 3-5 three
   angles. The translation loss is the mean of the squared differences of the translation channels; the rotation
   loss is the mean of the squared differences of the angles, each angle first wrapped once into (-pi, pi] by adding
   or subtracting 2 pi (pi and 2 pi the f32 values), times 100. The total is their sum. Both means divide the sum
   of 4096 * 1024 * 3 squares by that count. -/
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-- An argument array, index by index an extended real. -/
abbrev Arr : Type := (⟨3, ![4096, 1024, 6]⟩ : Shape).Idx → EReal

/-- The f32 nearest pi, and the f32 nearest 2 pi, as the exact binary values their patterns denote. -/
abbrev PI : EReal := Ideal.ofBits .f32 0x40490FDB#32
abbrev TWO_PI : EReal := Ideal.ofBits .f32 0x40C90FDB#32

/-- One correction downwards where the angle exceeds pi. -/
def wrapDown (a : EReal) : EReal := Scalar.select (Ideal.cmp .ogt a PI) (a - TWO_PI) a

/-- The angle wrap: one correction by 2 pi downwards where the angle exceeds pi, then one upwards where the result is below -pi. -/
def wrap (a : EReal) : EReal :=
  Scalar.select (Ideal.cmp .olt (wrapDown a) (-PI)) (wrapDown a + TWO_PI) (wrapDown a)

/-- Channel `c` of the translation, and of the angles, among the six channels of a pose. -/
abbrev lo (c : Fin 3) : Fin 6 := ⟨c.val, by have := c.isLt; omega⟩
abbrev hi (c : Fin 3) : Fin 6 := ⟨3 + c.val, by have := c.isLt; omega⟩

/-- The squared difference of translation channel `c` of pose `t` of sequence `b`. -/
def tsq (x0 x1 : Arr) (b : Fin 4096) (t : Fin 1024) (c : Fin 3) : EReal :=
  (x0 (ix3 b t (lo c)) - x1 (ix3 b t (lo c))) * (x0 (ix3 b t (lo c)) - x1 (ix3 b t (lo c)))

/-- The squared difference of the wrapped angles `c` of pose `t` of sequence `b`. -/
def rsq (x0 x1 : Arr) (b : Fin 4096) (t : Fin 1024) (c : Fin 3) : EReal :=
  (wrap (x0 (ix3 b t (hi c))) - wrap (x1 (ix3 b t (hi c)))) * (wrap (x0 (ix3 b t (hi c))) - wrap (x1 (ix3 b t (hi c))))

/-- The two sums of squares, over every sequence, pose and channel. -/
def transSum (x0 x1 : Arr) : EReal := ∑ b : Fin 4096, ∑ t : Fin 1024, ∑ c : Fin 3, tsq x0 x1 b t c
def rotSum (x0 x1 : Arr) : EReal := ∑ b : Fin 4096, ∑ t : Fin 1024, ∑ c : Fin 3, rsq x0 x1 b t c

/-- A sum of squares divided by the count 4096 * 1024 * 3 = 12582912 (an f32 exactly) and multiplied by a weight. -/
def scaled (w : BitVec 32) (s : EReal) : EReal :=
  FloatOps.mulf (F := Ideal) (φ := .f32)
    (FloatOps.hostDivf (F := Ideal) (φ := .f32) s (Ideal.ofBits .f32 0x4B400000#32)) (Ideal.ofBits .f32 w)

/-- The three results: the translation loss (weight 1), the rotation loss (weight 100), and their sum. -/
def transLoss (x0 x1 : Arr) : EReal := scaled 0x3F800000#32 (transSum x0 x1)
def rotLoss (x0 x1 : Arr) : EReal := scaled 0x42C80000#32 (rotSum x0 x1)
def totalLoss (x0 x1 : Arr) : EReal := transLoss x0 x1 + rotLoss x0 x1

/-- The sequences are taken eight at a time: the part of each sum of squares that sequences `8 i … 8 i + 7` contribute
    (nothing beyond the 512 groups). -/
def blockTrans (x0 x1 : Arr) (i : ℕ) : EReal :=
  if h : i < 512 then ∑ r : Fin 8, ∑ t : Fin 1024, ∑ c : Fin 3, tsq x0 x1 ⟨8 * i + r.val, by have := r.isLt; omega⟩ t c else 0
def blockRot (x0 x1 : Arr) (i : ℕ) : EReal :=
  if h : i < 512 then ∑ r : Fin 8, ∑ t : Fin 1024, ∑ c : Fin 3, rsq x0 x1 ⟨8 * i + r.val, by have := r.isLt; omega⟩ t c else 0

end Cert.Loss

end
-- ==== Proof.LibSumIdx3.lean ====
/- A sum over a rank-3 index set as the triple sum over its coordinates (the rank-3 companion of the library's
   `idxEquiv2` / `sum_idx2`): a rank-3 index is the triple of its coordinates, so any sum over the indices of a
   shape `[n0, n1, n2]`, in any commutative additive monoid, is `∑ a, ∑ b, ∑ c` of the summand at `ix3 a b c`.
   What a full reduction of a rank-3 array (a `jnp.sum` or `jnp.mean` over every axis) needs to meet a sum taken
   axis by axis. -/
import Idealize.ShloMosaic.Lib.ValueIdx

noncomputable section

open scoped BigOperators

namespace Cert.Loss

open Idealize.ShloMosaic Idealize.ShloMosaic.ValueIdx

/-- A rank-3 index set is the product of its three coordinate ranges: an index is the triple of its coordinates,
    and a triple of coordinates is the index they build. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Loss

end
-- ==== Proof.Algebra.lean ====
/- Sums re-indexed: the sum over 4096 sequences as the sum over 512 groups of eight (the triple sum over the
   coordinates of a rank-3 index set is in LibSumIdx3.lean); and the f32 pattern of -pi as the negative of the pattern of pi. -/
import proofs.«162553_j8753143349671_2_alg».proof.Proof.Spec
import proofs.«162553_j8753143349671_2_alg».proof.Proof.LibSumIdx3

noncomputable section

open scoped BigOperators

namespace Cert.Loss

open Idealize.ShloMosaic Idealize.ShloMosaic.ValueIdx

/-- A sum over 4096 = 512 * 8 terms taken eight at a time: term `8 i + r` is the `r`-th of group `i`. Only the
    commutativity and associativity of the addition are used. -/
theorem sum_blocks8 {M : Type*} [AddCommMonoid M] (g : Fin 4096 → M) :
    ∑ b : Fin 4096, g b
      = ∑ i ∈ Finset.range 512,
          (if h : i < 512 then ∑ r : Fin 8, g ⟨8 * i + r.val, by have := r.isLt; omega⟩ else 0) := by
  rw [Finset.sum_range]
  rw [← Equiv.sum_comp (finProdFinEquiv : Fin 512 × Fin 8 ≃ Fin 4096) g, Fintype.sum_prod_type]
  refine Finset.sum_congr rfl fun i _ => ?_
  rw [dif_pos i.isLt]
  refine Finset.sum_congr rfl fun r _ => ?_
  congr 1
  apply Fin.ext
  show r.val + 8 * i.val = 8 * i.val + r.val
  omega

/-- The sum of squares over all sequences is the sum of the 512 groups' parts. -/
theorem transSum_eq_blocks (x0 x1 : Arr) : transSum x0 x1 = ∑ i ∈ Finset.range 512, blockTrans x0 x1 i := by
  unfold transSum blockTrans
  exact sum_blocks8 (fun b => ∑ t : Fin 1024, ∑ c : Fin 3, tsq x0 x1 b t c)

theorem rotSum_eq_blocks (x0 x1 : Arr) : rotSum x0 x1 = ∑ i ∈ Finset.range 512, blockRot x0 x1 i := by
  unfold rotSum blockRot
  exact sum_blocks8 (fun b => ∑ t : Fin 1024, ∑ c : Fin 3, rsq x0 x1 b t c)

/-- The pattern with the sign bit set denotes the negative of the pattern without it. -/
theorem neg_pi : Ideal.ofBits .f32 0xC0490FDB#32 = -PI := by
  have h1 : Ideal.ofBits .f32 0xC0490FDB#32 = ((-(13176795 / 4194304 : ℝ) : ℝ) : EReal) := by
    simp [Ideal.ofBits, Ideal.ieee, -EReal.coe_mul]; norm_num
  have h2 : PI = (((13176795 / 4194304 : ℝ) : ℝ) : EReal) := by
    simp [PI, Ideal.ofBits, Ideal.ieee, -EReal.coe_mul]; norm_num
  rw [h1, h2, EReal.coe_neg]

end Cert.Loss

end
-- ==== Proof.RefLoss.lean ====
/- The reference program computes the three losses of the specification: its two elementwise squares are the
   specification's squared differences, its two full sums are the specification's sums of squares, and the
   division by the count, the weights and the final addition are the specification's. -/
import proofs.«162553_j8753143349671_2_alg».proof.Proof.Gen.ReferenceIdeal.Read
import proofs.«162553_j8753143349671_2_alg».proof.Proof.Algebra

noncomputable section

open scoped BigOperators

namespace Cert.ReferenceIdeal.RefLoss

open Cert.ReferenceIdeal Cert.ReferenceIdeal.Gen Idealize.ShloMosaic Idealize.ShloMosaic.TcCoe Idealize.SL.Sem
  Idealize.ShloMosaic.StableHlo Idealize.ShloMosaic.ValueIdx Cert.Loss

/-- An argument array of the reference at the exact instance. -/
abbrev In : Type := (⟨S4096x1024x6, .f32⟩ : BufTy).Contents (Elt Ideal)

/-- The slice of the angle channels reads channel `3 + c`. -/
theorem idx_hi (b : Fin 4096) (t : Fin 1024) (c : Fin 3) :
    Read.idx_main_v0 (ix3 b t c) = ix3 b t (hi c) :=
  funext fun a => Fin.ext (by match a with | ⟨0, _⟩ => rfl | ⟨1, _⟩ => rfl | ⟨2, _⟩ => rfl)

theorem idx_hi' (b : Fin 4096) (t : Fin 1024) (c : Fin 3) :
    Read.idx_main_v12 (ix3 b t c) = ix3 b t (hi c) :=
  funext fun a => Fin.ext (by match a with | ⟨0, _⟩ => rfl | ⟨1, _⟩ => rfl | ⟨2, _⟩ => rfl)

/-- The slice of the translation channels reads channel `c`. -/
theorem idx_lo (b : Fin 4096) (t : Fin 1024) (c : Fin 3) :
    Read.idx_main_v24 (ix3 b t c) = ix3 b t (lo c) :=
  funext fun a => Fin.ext (by match a with | ⟨0, _⟩ => rfl | ⟨1, _⟩ => rfl | ⟨2, _⟩ => rfl)

theorem idx_lo' (b : Fin 4096) (t : Fin 1024) (c : Fin 3) :
    Read.idx_main_v25 (ix3 b t c) = ix3 b t (lo c) :=
  funext fun a => Fin.ext (by match a with | ⟨0, _⟩ => rfl | ⟨1, _⟩ => rfl | ⟨2, _⟩ => rfl)

/-- The reference's squared translation difference is the specification's. -/
theorem v28_elt (x0 x1 : In) (b : Fin 4096) (t : Fin 1024) (c : Fin 3) :
    Read.val_main_v28 (F := Ideal) x0 x1 (ix3 b t c) = tsq x0 x1 b t c := by
  simp only [Read.val_main_v28_apply, Read.val_main_v26_apply, Read.val_main_v24_apply, Read.val_main_v25_apply,
    idx_lo, idx_lo', Ideal.subf_def, Ideal.mulf_def, tsq]

/-- The first argument's wrapped angle, as the reference computes it. -/
theorem v11_elt (x0 : In) (b : Fin 4096) (t : Fin 1024) (c : Fin 3) :
    Read.val_main_v11 (F := Ideal) x0 (ix3 b t c) = wrap (x0 (ix3 b t (hi c))) := by
  simp only [Read.val_main_v11_apply, Read.val_main_v10_apply, Read.val_main_v9_apply, Read.val_main_cst_2_apply,
    Read.val_main_v8_apply, Read.val_main_v7_apply, Read.val_main_v6_apply, Read.val_main_cst_1_apply,
    Read.val_main_v5_apply, Read.val_main_v4_apply, Read.val_main_v3_apply, Read.val_main_cst_0_apply,
    Read.val_main_v2_apply, Read.val_main_v1_apply, Read.val_main_cst_apply, Read.val_main_v0_apply,
    idx_hi, Ideal.cmpf_def, Ideal.subf_def, Ideal.addf_def, Ideal.hostNegf_def, Ideal.negf_def, Ideal.ofBits_def,
    wrap, wrapDown]

/-- The second argument's wrapped angle, as the reference computes it. -/
theorem v23_elt (x1 : In) (b : Fin 4096) (t : Fin 1024) (c : Fin 3) :
    Read.val_main_v23 (F := Ideal) x1 (ix3 b t c) = wrap (x1 (ix3 b t (hi c))) := by
  simp only [Read.val_main_v23_apply, Read.val_main_v22_apply, Read.val_main_v21_apply, Read.val_main_cst_6_apply,
    Read.val_main_v20_apply, Read.val_main_v19_apply, Read.val_main_v18_apply, Read.val_main_cst_5_apply,
    Read.val_main_v17_apply, Read.val_main_v16_apply, Read.val_main_v15_apply, Read.val_main_cst_4_apply,
    Read.val_main_v14_apply, Read.val_main_v13_apply, Read.val_main_cst_3_apply, Read.val_main_v12_apply,
    idx_hi', Ideal.cmpf_def, Ideal.subf_def, Ideal.addf_def, Ideal.hostNegf_def, Ideal.negf_def, Ideal.ofBits_def,
    wrap, wrapDown]

/-- The reference's squared angle difference is the specification's. -/
theorem v32_elt (x0 x1 : In) (b : Fin 4096) (t : Fin 1024) (c : Fin 3) :
    Read.val_main_v32 (F := Ideal) x0 x1 (ix3 b t c) = rsq x0 x1 b t c := by
  simp only [Read.val_main_v32_apply, Read.val_main_v27_apply, v11_elt, v23_elt, Ideal.subf_def, Ideal.mulf_def, rsq]

/-- The reference's first full sum is the specification's sum of squared translation differences. -/
theorem v29_eq (x0 x1 : In) (i : S_.Idx) : Read.val_main_v29 (F := Ideal) x0 x1 i = transSum x0 x1 := by
  rw [Read.val_main_v29_apply, Read.val_main_cst_7_apply, Ideal.ofBits_def, Ideal.ofBits_zero_f32, zero_add]
  refine (sum_idx3 _).trans ?_
  unfold transSum
  exact Finset.sum_congr rfl fun b _ => Finset.sum_congr rfl fun t _ => Finset.sum_congr rfl fun c _ =>
    v28_elt x0 x1 b t c

/-- The reference's second full sum is the specification's sum of squared angle differences. -/
theorem v33_eq (x0 x1 : In) (i : S_.Idx) : Read.val_main_v33 (F := Ideal) x0 x1 i = rotSum x0 x1 := by
  rw [Read.val_main_v33_apply, Read.val_main_cst_10_apply, Ideal.ofBits_def, Ideal.ofBits_zero_f32, zero_add]
  refine (sum_idx3 _).trans ?_
  unfold rotSum
  exact Finset.sum_congr rfl fun b _ => Finset.sum_congr rfl fun t _ => Finset.sum_congr rfl fun c _ =>
    v32_elt x0 x1 b t c

/-- The reference's translation loss. -/
theorem trans_eq (x0 x1 : In) : Read.val_main_v31 (F := Ideal) x0 x1 = fun _ => transLoss x0 x1 := by
  funext i
  rw [Read.val_main_v31_apply, Read.val_main_v30_apply, v29_eq, Read.val_main_cst_8_apply, Read.val_main_cst_9_apply]
  rfl

/-- The reference's rotation loss. -/
theorem rot_eq (x0 x1 : In) : Read.val_main_v35 (F := Ideal) x0 x1 = fun _ => rotLoss x0 x1 := by
  funext i
  rw [Read.val_main_v35_apply, Read.val_main_v34_apply, v33_eq, Read.val_main_cst_11_apply, Read.val_main_cst_12_apply]
  rfl

/-- The reference's total loss. -/
theorem total_eq (x0 x1 : In) : Read.val_main_v36 (F := Ideal) x0 x1 = fun _ => totalLoss x0 x1 := by
  funext i
  rw [Read.val_main_v36_apply, trans_eq, rot_eq]
  rfl

end Cert.ReferenceIdeal.RefLoss

end
-- ==== Proof.Pieces.lean ====
/- What each case of the kernel body leaves in the two running sums and in the two outputs, as values.

   The body adds, to the translation sum, the block's sum of squared translation differences, and to the rotation sum
   the block's sum of squared wrapped-angle differences. At the first grid point both running sums are first set to
   zero; at the last point the two sums are also copied to the two outputs. -/
import proofs.«162553_j8753143349671_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first point the translation sum is set to zero and the block's part added. -/
theorem trans_first (c : Dev nD) (i : grid0.Coords) (a1 : Memref sig .tc .vmem S8x1024x6 .f32) (h1 : a1.IsWhole) (a2 : Memref sig .tc .vmem S8x1024x6 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 : Vec F S8x1024x6 .f32) :
    sout0_A_0 c i a1 h1 a2 h2 a3 h3 a4 h4 a5 h5 a6 h6 hc0 hc1 x0 x1 = k0_pay1 (k0_pay3 (F := F)) (k0_pay6 x0 x1) := by
  unfold sout0_A_0
  rw [View.read_writes_eq_canon _ _ _ (scover0_A_0 c i a1 h1 a2 h2 a3 h3 a4 h4 a5 h5 a6 h6 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, h5.read_unread, h6.read_unread, View.ld_unit_zero (S := S1x1) hz2, View.ld_unit_zero (S := S8x1024x6) hz3]

/-- At the first point the rotation sum is set to zero and the block's part added. -/
theorem rot_first (c : Dev nD) (i : grid0.Coords) (a1 : Memref sig .tc .vmem S8x1024x6 .f32) (h1 : a1.IsWhole) (a2 : Memref sig .tc .vmem S8x1024x6 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i)
    (x0 x1 : Vec F S8x1024x6 .f32) :
    sout0_A_1 c i a1 h1 a2 h2 a3 h3 a4 h4 a5 h5 a6 h6 hc0 hc1 x0 x1 = k0_pay2 (k0_pay5 x0 x1) (k0_pay4 (F := F)) := by
  unfold sout0_A_1
  rw [View.read_writes_eq_canon _ _ _ (scover0_A_1 c i a1 h1 a2 h2 a3 h3 a4 h4 a5 h5 a6 h6 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, h5.read_unread, h6.read_unread, View.ld_unit_zero (S := S1x1) hz2, View.ld_unit_zero (S := S8x1024x6) hz3]

/-- At a middle point the block's part is added to the translation sum the point before left. -/
theorem trans_mid (c : Dev nD) (i : grid0.Coords) (a1 : Memref sig .tc .vmem S8x1024x6 .f32) (h1 : a1.IsWhole) (a2 : Memref sig .tc .vmem S8x1024x6 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 : Vec F S8x1024x6 .f32) (xs0 xs1 : Vec F S1x1 .f32) :
    sout0_B_0 c i a1 h1 a2 h2 a3 h3 a4 h4 a5 h5 a6 h6 hc0 hc1 x0 x1 xs0 xs1 = k0_pay1 xs0 (k0_pay6 x0 x1) := by
  unfold sout0_B_0
  rw [View.read_writes_eq_canon _ _ _ (scover0_B_0 c i a1 h1 a2 h2 a3 h3 a4 h4 a5 h5 a6 h6 hc0 hc1 x0 x1 xs0 xs1)]
  unfold kernelRun0_B
  dsimp only
  sl_unfold_words
  rw [View.canon_unit_zero hz2]
  simp only [View.readAt_eq_ld, h1.read_unread, h2.read_unread, h5.read_unread, h6.read_unread, View.ld_unit_zero (S := S1x1) hz2, View.ld_unit_zero (S := S8x1024x6) hz3]

/-- At a middle point the block's part is added to the rotation sum the point before left. -/
theorem rot_mid (c : Dev nD) (i : grid0.Coords) (a1 : Memref sig .tc .vmem S8x1024x6 .f32) (h1 : a1.IsWhole) (a2 : Memref sig .tc .vmem S8x1024x6 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i)
    (x0 x1 : Vec F S8x1024x6 .f32) (xs0 xs1 : Vec F S1x1 .f32) :
    sout0_B_1 c i a1 h1 a2 h2 a3 h3 a4 h4 a5 h5 a6 h6 hc0 hc1 x0 x1 xs0 xs1 = k0_pay2 (k0_pay5 x0 x1) xs1 := by
  unfold sout0_B_1
  rw [View.read_writes_eq_canon _ _ _ (scover0_B_1 c i a1 h1 a2 h2 a3 h3 a4 h4 a5 h5 a6 h6 hc0 hc1 x0 x1 xs0 xs1)]
  unfold kernelRun0_B
  dsimp only
  sl_unfold_words
  rw [View.canon_unit_zero hz2]
  simp only [View.readAt_eq_ld, h1.read_unread, h2.read_unread, h5.read_unread, h6.read_unread, View.ld_unit_zero (S := S1x1) hz2, View.ld_unit_zero (S := S8x1024x6) hz3]

/-- At the last point likewise, -/
theorem trans_last (c : Dev nD) (i : grid0.Coords) (a1 : Memref sig .tc .vmem S8x1024x6 .f32) (h1 : a1.IsWhole) (a2 : Memref sig .tc .vmem S8x1024x6 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S8x1024x6 .f32) (xs0 xs1 : Vec F S1x1 .f32) :
    sout0_C_0 c i a1 h1 a2 h2 a3 h3 a4 h4 a5 h5 a6 h6 hc0 hc1 x0 x1 xs0 xs1 = k0_pay1 xs0 (k0_pay6 x0 x1) := by
  unfold sout0_C_0
  rw [View.read_writes_eq_canon _ _ _ (scover0_C_0 c i a1 h1 a2 h2 a3 h3 a4 h4 a5 h5 a6 h6 hc0 hc1 x0 x1 xs0 xs1)]
  unfold kernelRun0_C
  dsimp only
  sl_unfold_words
  rw [View.canon_unit_zero hz2]
  simp only [View.readAt_eq_ld, h1.read_unread, h2.read_unread, h5.read_unread, h6.read_unread, View.ld_unit_zero (S := S1x1) hz2, View.ld_unit_zero (S := S8x1024x6) hz3]

/-- for both sums, -/
theorem rot_last (c : Dev nD) (i : grid0.Coords) (a1 : Memref sig .tc .vmem S8x1024x6 .f32) (h1 : a1.IsWhole) (a2 : Memref sig .tc .vmem S8x1024x6 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S8x1024x6 .f32) (xs0 xs1 : Vec F S1x1 .f32) :
    sout0_C_1 c i a1 h1 a2 h2 a3 h3 a4 h4 a5 h5 a6 h6 hc0 hc1 x0 x1 xs0 xs1 = k0_pay2 (k0_pay5 x0 x1) xs1 := by
  unfold sout0_C_1
  rw [View.read_writes_eq_canon _ _ _ (scover0_C_1 c i a1 h1 a2 h2 a3 h3 a4 h4 a5 h5 a6 h6 hc0 hc1 x0 x1 xs0 xs1)]
  unfold kernelRun0_C
  dsimp only
  sl_unfold_words
  rw [View.canon_unit_zero hz2]
  simp only [View.readAt_eq_ld, h1.read_unread, h2.read_unread, h5.read_unread, h6.read_unread, View.ld_unit_zero (S := S1x1) hz2, View.ld_unit_zero (S := S8x1024x6) hz3]

/-- and the first output receives the final translation sum, -/
theorem trans_out (c : Dev nD) (i : grid0.Coords) (a1 : Memref sig .tc .vmem S8x1024x6 .f32) (h1 : a1.IsWhole) (a2 : Memref sig .tc .vmem S8x1024x6 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S8x1024x6 .f32) (xs0 xs1 : Vec F S1x1 .f32) :
    out0_C_2 c i a1 h1 a2 h2 a3 h3 a4 h4 a5 h5 a6 h6 hc0 hc1 x0 x1 xs0 xs1 = k0_pay1 xs0 (k0_pay6 x0 x1) := by
  unfold out0_C_2
  rw [View.read_writes_eq_canon _ _ _ (cover0_C_2 c i a1 h1 a2 h2 a3 h3 a4 h4 a5 h5 a6 h6 hc0 hc1 x0 x1 xs0 xs1)]
  unfold kernelRun0_C
  dsimp only
  sl_unfold_words
  rw [View.canon_unit_zero hz2, View.readCov_unit_zero (S := S1x1) _ hz2]
  simp only [View.readAt_eq_ld, h1.read_unread, h2.read_unread, h5.read_unread, h6.read_unread, View.ld_unit_zero (S := S1x1) hz2, View.ld_unit_zero (S := S8x1024x6) hz3]

/-- the second output the final rotation sum. -/
theorem rot_out (c : Dev nD) (i : grid0.Coords) (a1 : Memref sig .tc .vmem S8x1024x6 .f32) (h1 : a1.IsWhole) (a2 : Memref sig .tc .vmem S8x1024x6 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i)
    (x0 x1 : Vec F S8x1024x6 .f32) (xs0 xs1 : Vec F S1x1 .f32) :
    out0_C_3 c i a1 h1 a2 h2 a3 h3 a4 h4 a5 h5 a6 h6 hc0 hc1 x0 x1 xs0 xs1 = k0_pay2 (k0_pay5 x0 x1) xs1 := by
  unfold out0_C_3
  rw [View.read_writes_eq_canon _ _ _ (cover0_C_3 c i a1 h1 a2 h2 a3 h3 a4 h4 a5 h5 a6 h6 hc0 hc1 x0 x1 xs0 xs1)]
  unfold kernelRun0_C
  dsimp only
  sl_unfold_words
  rw [View.canon_unit_zero hz2, View.readCov_unit_zero (S := S1x1) _ hz2]
  simp only [View.readAt_eq_ld, h1.read_unread, h2.read_unread, h5.read_unread, h6.read_unread, View.ld_unit_zero (S := S1x1) hz2, View.ld_unit_zero (S := S8x1024x6) hz3]

end Cert.KernelIdeal.Pieces

end
-- ==== Proof.Blocks.lean ====
/- The blocks the kernel's two input windows read at a grid point: point `t` reads sequences `8 t … 8 t + 7`
   of each argument array, every pose and every channel. -/
import proofs.«162553_j8753143349671_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The block index of both input windows at point `t` is `(t, 0, 0)`. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- Sequence `r` of point `t`'s block is sequence `8 t + r` of the array. -/
abbrev seq (t : Fin cfg0.N) (r : Fin 8) : Fin 4096 :=
  ⟨8 * t.val + r.val, by have := t.isLt; have := r.isLt; have : cfg0.N = 512 := N_0; omega⟩

/-- The first input's block at point `t`, entry by entry. -/
theorem block0_apply (c : Dev nD) (t : Fin cfg0.N) (r : Fin 8) (s : Fin 1024) (ch : Fin 6) :
    (iblk m c 0 t : Vec F S8x1024x6 .f32) (ix3 r s ch) = m ((c : Thread nD τ).loc main_arg0) (ix3 (seq t r) s ch) := by
  unfold iblk
  rw [View.read_apply]
  show V m c main_arg0 _ = m (c.tc.loc main_arg0) _
  unfold V
  congr 1
  funext a
  apply Fin.ext
  match a with
  | ⟨0, _⟩ => show win0_0.index t 0 * 8 + 1 * r.val = 8 * t.val + r.val; rw [(index0 t).1]; omega
  | ⟨1, _⟩ => show win0_0.index t 1 * 1024 + 1 * s.val = s.val; rw [(index0 t).2.1]; omega
  | ⟨2, _⟩ => show win0_0.index t 2 * 6 + 1 * ch.val = ch.val; rw [(index0 t).2.2]; omega

/-- The second input's block at point `t`, entry by entry. -/
theorem block1_apply (c : Dev nD) (t : Fin cfg0.N) (r : Fin 8) (s : Fin 1024) (ch : Fin 6) :
    (iblk m c 1 t : Vec F S8x1024x6 .f32) (ix3 r s ch) = m ((c : Thread nD τ).loc main_arg1) (ix3 (seq t r) s ch) := by
  unfold iblk
  rw [View.read_apply]
  show V m c main_arg1 _ = m (c.tc.loc main_arg1) _
  unfold V
  congr 1
  funext a
  apply Fin.ext
  match a with
  | ⟨0, _⟩ => show win0_1.index t 0 * 8 + 1 * r.val = 8 * t.val + r.val; rw [(index1 t).1]; omega
  | ⟨1, _⟩ => show win0_1.index t 1 * 1024 + 1 * s.val = s.val; rw [(index1 t).2.1]; omega
  | ⟨2, _⟩ => show win0_1.index t 2 * 6 + 1 * ch.val = ch.val; rw [(index1 t).2.2]; omega

end Cert.KernelIdeal.Blocks

end
-- ==== Proof.Payload.lean ====
/- The kernel body's arithmetic read at an index: each stored value of one grid point, as a function of the two
   input blocks of eight sequences and of the running sum it adds to, written over coordinates. One lemma per
   operation that is not pointwise: a sum over one axis, a change of shape that adds or drops unit axes, a slice of
   the channels. -/
import proofs.«162553_j8753143349671_2_alg».proof.Proof.Gen.KernelIdeal.Skeleton
import proofs.«162553_j8753143349671_2_alg».proof.Proof.Spec
import proofs.«162553_j8753143349671_2_alg».proof.Proof.Algebra
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Loss

/-! ## The sums over one axis -/

/-- The sum over the three channels, at sequence r and pose t. -/
theorem red2 (v : FVec Ideal S8x1024x3 .f32) (r : Fin 8) (t : Fin 1024) :
    multiReduction .add [2] S8x1024 v 0x00000000#32 reduces_S8x1024x3_S8x1024 (.inl rfl) rfl (ix2 r t)
      = ∑ c : Fin 3, v (ix3 r t c) :=
  (Ideal.multiReduction_add_single v _ reduces_S8x1024x3_S8x1024 _ _ (ix2 r t)).trans
    (Finset.sum_congr rfl fun c _ => congrArg v (funext fun a => by
      match a with
      | ⟨0, _⟩ => rfl
      | ⟨1, _⟩ => rfl
      | ⟨2, _⟩ => rfl))

/-- The sum over the 1024 poses, at sequence r. -/
theorem red1 (v : FVec Ideal S8x1024x1 .f32) (r : Fin 8) (u : Fin 1) :
    multiReduction .add [1] S8x1 v 0x00000000#32 reduces_S8x1024x1_S8x1 (.inl rfl) rfl (ix2 r u)
      = ∑ t : Fin 1024, v (ix3 r t u) :=
  (Ideal.multiReduction_add_single v _ reduces_S8x1024x1_S8x1 _ _ (ix2 r u)).trans
    (Finset.sum_congr rfl fun t _ => congrArg v (funext fun a => by
      match a with
      | ⟨0, _⟩ => rfl
      | ⟨1, _⟩ => rfl
      | ⟨2, _⟩ => rfl))

/-- The sum over the eight sequences. -/
theorem red0 (v : FVec Ideal S8x1x1 .f32) (u u' : Fin 1) :
    multiReduction .add [0] S1x1 v 0x00000000#32 reduces_S8x1x1_S1x1 (.inl rfl) rfl (ix2 u u')
      = ∑ r : Fin 8, v (ix3 r u u') :=
  (Ideal.multiReduction_add_single v _ reduces_S8x1x1_S1x1 _ _ (ix2 u u')).trans
    (Finset.sum_congr rfl fun r _ => congrArg v (funext fun a => by
      match a with
      | ⟨0, _⟩ => rfl
      | ⟨1, _⟩ => rfl
      | ⟨2, _⟩ => rfl))

/-! ## The changes of shape that add a trailing unit axis -/

/-- An [8, 1024] array seen as [8, 1024, 1] reads, at (r, t, u), the array at (r, t). -/
theorem cast_8x1024 {α : Type} (v : S8x1024.Idx → α) (r : Fin 8) (t : Fin 1024) (u : Fin 1) :
    shapeCast S8x1024x1 v shapeCasts_S8x1024_S8x1024x1 (ix3 r t u) = v (ix2 r t) :=
  shapeCast_apply v _ _ _ (by
    have hu : u.val = 0 := by omega
    rw [Shape.rowMajor_val_three, Shape.rowMajor_val_two]
    show r.val * 1024 + t.val = (r.val * 1024 + t.val) * 1 + u.val
    omega)

/-- An [8, 1] array seen as [8, 1, 1] reads, at (r, u, u'), the array at (r, u). -/
theorem cast_8x1 {α : Type} (v : S8x1.Idx → α) (r : Fin 8) (u u' : Fin 1) :
    shapeCast S8x1x1 v shapeCasts_S8x1_S8x1x1 (ix3 r u u') = v (ix2 r u) :=
  shapeCast_apply v _ _ _ (by
    have hu : u'.val = 0 := by omega
    rw [Shape.rowMajor_val_three, Shape.rowMajor_val_two]
    show r.val * 1 + u.val = (r.val * 1 + u.val) * 1 + u'.val
    omega)

/-! ## The slices of the channels -/

/-- Channels 0-2 of a block: at (r, t, c) the block at (r, t, lo c). -/
theorem slice_lo {α : Type} (x : S8x1024x6.Idx → α) (r : Fin 8) (t : Fin 1024) (c : Fin 3) :
    extractStridedSlice S8x1024x3 ![0, 0, 0] x slices_S8x1024x6_o0_0_0_S8x1024x3 (ix3 r t c) = x (ix3 r t (lo c)) :=
  extractStridedSlice_apply _ x _ _ _ (fun a => by
    match a with
    | ⟨0, _⟩ => exact (Nat.zero_add _).symm
    | ⟨1, _⟩ => exact (Nat.zero_add _).symm
    | ⟨2, _⟩ => exact (Nat.zero_add _).symm)

/-- Channels 3-5 of a block: at (r, t, c) the block at (r, t, hi c). -/
theorem slice_hi {α : Type} (x : S8x1024x6.Idx → α) (r : Fin 8) (t : Fin 1024) (c : Fin 3) :
    extractStridedSlice S8x1024x3 ![0, 0, 3] x slices_S8x1024x6_o0_0_3_S8x1024x3 (ix3 r t c) = x (ix3 r t (hi c)) :=
  extractStridedSlice_apply _ x _ _ _ (fun a => by
    match a with
    | ⟨0, _⟩ => exact (Nat.zero_add _).symm
    | ⟨1, _⟩ => exact (Nat.zero_add _).symm
    | ⟨2, _⟩ => rfl)

/-! ## The two initial values -/

theorem pay3_zero : k0_pay3 (F := Ideal) (ix2 (0 : Fin 1) (0 : Fin 1)) = 0 := by
  unfold k0_pay3
  rw [shapeCast_self]
  exact Ideal.ofBits_zero_f32

theorem pay4_zero : k0_pay4 (F := Ideal) (ix2 (0 : Fin 1) (0 : Fin 1)) = 0 := by
  unfold k0_pay4
  rw [shapeCast_self]
  exact Ideal.ofBits_zero_f32

/-! ## The translation squares summed over poses and channels, per sequence -/

theorem pay6_apply (x0 x1 : Vec Ideal S8x1024x6 .f32) (r : Fin 8) (u u' : Fin 1) :
    k0_pay6 x0 x1 (ix3 r u u')
      = ∑ t : Fin 1024, ∑ c : Fin 3,
          (x0 (ix3 r t (lo c)) - x1 (ix3 r t (lo c))) * (x0 (ix3 r t (lo c)) - x1 (ix3 r t (lo c))) := by
  unfold k0_pay6
  refine (cast_8x1 _ r u u').trans ?_
  refine (red1 _ r u).trans ?_
  refine Finset.sum_congr rfl fun t _ => ?_
  refine (cast_8x1024 _ r t u).trans ?_
  refine (red2 _ r t).trans ?_
  refine Finset.sum_congr rfl fun c _ => ?_
  show (extractStridedSlice S8x1024x3 ![0, 0, 0] x0 slices_S8x1024x6_o0_0_0_S8x1024x3 (ix3 r t c)
        - extractStridedSlice S8x1024x3 ![0, 0, 0] x1 slices_S8x1024x6_o0_0_0_S8x1024x3 (ix3 r t c))
      * (extractStridedSlice S8x1024x3 ![0, 0, 0] x0 slices_S8x1024x6_o0_0_0_S8x1024x3 (ix3 r t c)
        - extractStridedSlice S8x1024x3 ![0, 0, 0] x1 slices_S8x1024x6_o0_0_0_S8x1024x3 (ix3 r t c)) = _
  rw [slice_lo, slice_lo]

/-! ## The running sum of the translation squares -/

theorem pay1_apply (acc : Vec Ideal S1x1 .f32) (v : FVec Ideal S8x1x1 .f32) :
    k0_pay1 acc v (ix2 (0 : Fin 1) (0 : Fin 1))
      = acc (ix2 (0 : Fin 1) (0 : Fin 1)) + ∑ r : Fin 8, v (ix3 r (0 : Fin 1) (0 : Fin 1)) := by
  unfold k0_pay1
  rw [shapeCast_self, shapeCast_shapeCast]
  exact congrArg (acc (ix2 (0 : Fin 1) (0 : Fin 1)) + ·) (red0 v 0 0)

theorem trans_step (x0 x1 : Vec Ideal S8x1024x6 .f32) (acc : Vec Ideal S1x1 .f32) :
    k0_pay1 acc (k0_pay6 x0 x1) (ix2 (0 : Fin 1) (0 : Fin 1))
      = acc (ix2 (0 : Fin 1) (0 : Fin 1)) + ∑ r : Fin 8, ∑ t : Fin 1024, ∑ c : Fin 3,
          (x0 (ix3 r t (lo c)) - x1 (ix3 r t (lo c))) * (x0 (ix3 r t (lo c)) - x1 (ix3 r t (lo c))) :=
  (pay1_apply acc (k0_pay6 x0 x1)).trans
    (congrArg (acc (ix2 (0 : Fin 1) (0 : Fin 1)) + ·) (Finset.sum_congr rfl fun r _ => pay6_apply x0 x1 r 0 0))

/-! ## The difference of the wrapped angles -/

/-- The angle wrap as the kernel writes it: its lower bound is the f32 pattern of -pi itself. -/
def wrapLit (a : EReal) : EReal :=
  Scalar.select (Ideal.cmp .olt (wrapDown a) (Ideal.ofBits .f32 0xC0490FDB#32)) (wrapDown a + TWO_PI) (wrapDown a)

theorem wrapLit_eq (a : EReal) : wrapLit a = wrap a := by
  unfold wrapLit wrap
  rw [neg_pi]

theorem pay5_apply (x0 x1 : Vec Ideal S8x1024x6 .f32) (r : Fin 8) (t : Fin 1024) (c : Fin 3) :
    k0_pay5 x0 x1 (ix3 r t c) = wrap (x0 (ix3 r t (hi c))) - wrap (x1 (ix3 r t (hi c))) := by
  unfold k0_pay5
  show wrapLit (extractStridedSlice S8x1024x3 ![0, 0, 3] x0 slices_S8x1024x6_o0_0_3_S8x1024x3 (ix3 r t c))
      - wrapLit (extractStridedSlice S8x1024x3 ![0, 0, 3] x1 slices_S8x1024x6_o0_0_3_S8x1024x3 (ix3 r t c)) = _
  rw [slice_hi, slice_hi, wrapLit_eq, wrapLit_eq]

/-! ## The running sum of the rotation squares -/

theorem pay2_apply (v : FVec Ideal S8x1024x3 .f32) (acc : Vec Ideal S1x1 .f32) :
    k0_pay2 v acc (ix2 (0 : Fin 1) (0 : Fin 1))
      = acc (ix2 (0 : Fin 1) (0 : Fin 1)) + ∑ r : Fin 8, ∑ t : Fin 1024, ∑ c : Fin 3, v (ix3 r t c) * v (ix3 r t c) := by
  unfold k0_pay2
  rw [shapeCast_self, shapeCast_shapeCast]
  refine congrArg (acc (ix2 (0 : Fin 1) (0 : Fin 1)) + ·) ?_
  refine (red0 _ 0 0).trans ?_
  refine Finset.sum_congr rfl fun r _ => ?_
  refine (cast_8x1 _ r 0 0).trans ?_
  refine (red1 _ r 0).trans ?_
  refine Finset.sum_congr rfl fun t _ => ?_
  refine (cast_8x1024 _ r t 0).trans ?_
  exact red2 _ r t

theorem rot_step (x0 x1 : Vec Ideal S8x1024x6 .f32) (acc : Vec Ideal S1x1 .f32) :
    k0_pay2 (k0_pay5 x0 x1) acc (ix2 (0 : Fin 1) (0 : Fin 1))
      = acc (ix2 (0 : Fin 1) (0 : Fin 1)) + ∑ r : Fin 8, ∑ t : Fin 1024, ∑ c : Fin 3,
          (wrap (x0 (ix3 r t (hi c))) - wrap (x1 (ix3 r t (hi c)))) * (wrap (x0 (ix3 r t (hi c))) - wrap (x1 (ix3 r t (hi c)))) :=
  (pay2_apply (k0_pay5 x0 x1) acc).trans
    (congrArg (acc (ix2 (0 : Fin 1) (0 : Fin 1)) + ·) (Finset.sum_congr rfl fun r _ =>
      Finset.sum_congr rfl fun t _ => Finset.sum_congr rfl fun c _ => by rw [pay5_apply]))

end Cert.KernelIdeal.Pay

end
-- ==== Proof.Accum.lean ====
/- The two running sums after each grid point, and what the two outputs receive at the last point.

   After point `n` the translation sum holds the parts of sequences `0 … 8 n + 7`, block by block in point order, and
   the rotation sum likewise: by induction on the point. At point 511 both are copied out, so the outputs receive the
   sums over all 4096 sequences. Only commutativity and associativity of addition on the extended reals are used. -/
import proofs.«162553_j8753143349671_2_alg».proof.Proof.Pieces
import proofs.«162553_j8753143349671_2_alg».proof.Proof.Blocks
import proofs.«162553_j8753143349671_2_alg».proof.Proof.Payload
import proofs.«162553_j8753143349671_2_alg».proof.Proof.Algebra

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.Loss

/-- Sequence `r` of the `t`-th group of eight. -/
abbrev seqOf (t : ℕ) (ht : t < 512) (r : Fin 8) : Fin 4096 := ⟨8 * t + r.val, by have := r.isLt; omega⟩

/-- One point's step on the translation sum, for blocks `b0`, `b1` that are sequences `8 t … 8 t + 7` of the arrays
    `x0`, `x1`: the sum before plus the group's part. -/
theorem trans_step_of (x0 x1 : Arr) (t : ℕ) (ht : t < 512) (b0 b1 : Vec Ideal S8x1024x6 .f32) (acc : Vec Ideal S1x1 .f32)
    (h0 : ∀ (r : Fin 8) (s : Fin 1024) (ch : Fin 6), b0 (ix3 r s ch) = x0 (ix3 (seqOf t ht r) s ch))
    (h1 : ∀ (r : Fin 8) (s : Fin 1024) (ch : Fin 6), b1 (ix3 r s ch) = x1 (ix3 (seqOf t ht r) s ch)) :
    k0_pay1 acc (k0_pay6 b0 b1) (ix2 (0 : Fin 1) (0 : Fin 1)) = acc (ix2 (0 : Fin 1) (0 : Fin 1)) + blockTrans x0 x1 t := by
  refine (Pay.trans_step b0 b1 acc).trans (congrArg (acc (ix2 (0 : Fin 1) (0 : Fin 1)) + ·) ?_)
  unfold blockTrans
  rw [dif_pos ht]
  refine Finset.sum_congr rfl fun r _ => Finset.sum_congr rfl fun s _ => Finset.sum_congr rfl fun ch _ => ?_
  rw [h0 r s (lo ch), h1 r s (lo ch)]
  rfl

/-- One point's step on the rotation sum, likewise. -/
theorem rot_step_of (x0 x1 : Arr) (t : ℕ) (ht : t < 512) (b0 b1 : Vec Ideal S8x1024x6 .f32) (acc : Vec Ideal S1x1 .f32)
    (h0 : ∀ (r : Fin 8) (s : Fin 1024) (ch : Fin 6), b0 (ix3 r s ch) = x0 (ix3 (seqOf t ht r) s ch))
    (h1 : ∀ (r : Fin 8) (s : Fin 1024) (ch : Fin 6), b1 (ix3 r s ch) = x1 (ix3 (seqOf t ht r) s ch)) :
    k0_pay2 (k0_pay5 b0 b1) acc (ix2 (0 : Fin 1) (0 : Fin 1)) = acc (ix2 (0 : Fin 1) (0 : Fin 1)) + blockRot x0 x1 t := by
  refine (Pay.rot_step b0 b1 acc).trans (congrArg (acc (ix2 (0 : Fin 1) (0 : Fin 1)) + ·) ?_)
  unfold blockRot
  rw [dif_pos ht]
  refine Finset.sum_congr rfl fun r _ => Finset.sum_congr rfl fun s _ => Finset.sum_congr rfl fun ch _ => ?_
  rw [h0 r s (hi ch), h1 r s (hi ch)]
  rfl

variable (m : (ℓ : Loc nD τ sig) → Buf (Elt Ideal) ℓ)

/-- The two argument arrays on core `c`. -/
abbrev X0 (c : Dev nD) : Arr := m ((c : Thread nD τ).loc main_arg0)
abbrev X1 (c : Dev nD) : Arr := m ((c : Thread nD τ).loc main_arg1)

/-- The step at grid point `t`, on the blocks the two input windows read there. -/
theorem trans_after (c : Dev nD) (t : Fin cfg0.N) (ht : t.val < 512) (acc : Vec Ideal S1x1 .f32) :
    k0_pay1 acc (k0_pay6 (iblk m c 0 t) (iblk m c 1 t)) (ix2 (0 : Fin 1) (0 : Fin 1))
      = acc (ix2 (0 : Fin 1) (0 : Fin 1)) + blockTrans (X0 m c) (X1 m c) t.val :=
  trans_step_of (X0 m c) (X1 m c) t.val ht (iblk m c 0 t) (iblk m c 1 t) acc
    (Blocks.block0_apply m c t) (Blocks.block1_apply m c t)

theorem rot_after (c : Dev nD) (t : Fin cfg0.N) (ht : t.val < 512) (acc : Vec Ideal S1x1 .f32) :
    k0_pay2 (k0_pay5 (iblk m c 0 t) (iblk m c 1 t)) acc (ix2 (0 : Fin 1) (0 : Fin 1))
      = acc (ix2 (0 : Fin 1) (0 : Fin 1)) + blockRot (X0 m c) (X1 m c) t.val :=
  rot_step_of (X0 m c) (X1 m c) t.val ht (iblk m c 0 t) (iblk m c 1 t) acc
    (Blocks.block0_apply m c t) (Blocks.block1_apply m c t)

/-- After point `n` the two running sums hold the parts of the first `n + 1` groups of eight sequences. -/
theorem sums_after (c : Dev nD) : ∀ (n : ℕ) (hn : n < cfg0.N),
    (outsAt0 m c n hn).2.2.1 (ix2 (0 : Fin 1) (0 : Fin 1)) = ∑ i ∈ Finset.range (n + 1), blockTrans (X0 m c) (X1 m c) i
    ∧ (outsAt0 m c n hn).2.2.2 (ix2 (0 : Fin 1) (0 : Fin 1)) = ∑ i ∈ Finset.range (n + 1), blockRot (X0 m c) (X1 m c) i
  | 0, hn => by
    rw [outsAt0_A m c ⟨0, hn⟩ rfl (show ¬(0 % 512 = 511) by decide)]
    dsimp only
    rw [Pieces.trans_first, Pieces.rot_first]
    constructor
    · rw [trans_after m c ⟨0, hn⟩ (show 0 < 512 by decide) (k0_pay3 (F := Ideal)), Pay.pay3_zero, zero_add, Finset.sum_range_one]
    · rw [rot_after m c ⟨0, hn⟩ (show 0 < 512 by decide) (k0_pay4 (F := Ideal)), Pay.pay4_zero, zero_add, Finset.sum_range_one]
  | n + 1, hn => by
    have hN : cfg0.N = 512 := N_0
    have hlt : n + 1 < 512 := by omega
    have ih := sums_after c n (Nat.lt_of_succ_lt hn)
    have h0 : ¬(n + 1) % 512 = 0 := by omega
    by_cases h1 : (n + 1) % 512 = 511
    · rw [outsAt0_C m c ⟨n + 1, hn⟩ h0 h1]
      dsimp only
      rw [Pieces.trans_last, Pieces.rot_last]
      constructor
      · rw [trans_after m c ⟨n + 1, hn⟩ hlt _, Finset.sum_range_succ _ (n + 1)]
        exact congrArg (· + _) ih.1
      · rw [rot_after m c ⟨n + 1, hn⟩ hlt _, Finset.sum_range_succ _ (n + 1)]
        exact congrArg (· + _) ih.2
    · rw [outsAt0_B m c ⟨n + 1, hn⟩ h0 h1]
      dsimp only
      rw [Pieces.trans_mid, Pieces.rot_mid]
      constructor
      · rw [trans_after m c ⟨n + 1, hn⟩ hlt _, Finset.sum_range_succ _ (n + 1)]
        exact congrArg (· + _) ih.1
      · rw [rot_after m c ⟨n + 1, hn⟩ hlt _, Finset.sum_range_succ _ (n + 1)]
        exact congrArg (· + _) ih.2

/-- At a point that copies the sums out, each output receives the sum its running sum holds after that point. -/
theorem outs_after (c : Dev nD) (n : ℕ) (hn : n + 1 < cfg0.N) (h1 : (n + 1) % 512 = 511) :
    (outsAt0 m c (n + 1) hn).1 (ix2 (0 : Fin 1) (0 : Fin 1)) = ∑ i ∈ Finset.range (n + 1 + 1), blockTrans (X0 m c) (X1 m c) i
    ∧ (outsAt0 m c (n + 1) hn).2.1 (ix2 (0 : Fin 1) (0 : Fin 1)) = ∑ i ∈ Finset.range (n + 1 + 1), blockRot (X0 m c) (X1 m c) i := by
  have hN : cfg0.N = 512 := N_0
  have hlt : n + 1 < 512 := by omega
  have ih := sums_after m c n (Nat.lt_of_succ_lt hn)
  have h0 : ¬(n + 1) % 512 = 0 := by omega
  rw [outsAt0_C m c ⟨n + 1, hn⟩ h0 h1]
  dsimp only
  rw [Pieces.trans_out, Pieces.rot_out]
  constructor
  · rw [trans_after m c ⟨n + 1, hn⟩ hlt _, Finset.sum_range_succ _ (n + 1)]
    exact congrArg (· + _) ih.1
  · rw [rot_after m c ⟨n + 1, hn⟩ hlt _, Finset.sum_range_succ _ (n + 1)]
    exact congrArg (· + _) ih.2

/-- A [1,1] array has one index. -/
theorem idx_eq (y : S1x1.Idx) : y = ix2 (0 : Fin 1) (0 : Fin 1) := by
  funext a
  apply Fin.ext
  match a with
  | ⟨0, _⟩ => have : (y 0).val < 1 := idx2_lt0 (n0 := 1) (n1 := 1) y; show (y 0).val = 0; omega
  | ⟨1, _⟩ => have : (y 1).val < 1 := idx2_lt1 (n0 := 1) (n1 := 1) y; show (y 1).val = 0; omega

/-- At the last of the 512 points the first output receives the sum of squared translation differences over all
    sequences, the second the sum of squared wrapped-angle differences. -/
theorem outs_last (c : Dev nD) (h : 510 + 1 < cfg0.N) :
    (outsAt0 m c (510 + 1) h).1 = (fun _ => transSum (X0 m c) (X1 m c))
    ∧ (outsAt0 m c (510 + 1) h).2.1 = (fun _ => rotSum (X0 m c) (X1 m c)) := by
  have key := outs_after m c 510 h (by decide)
  constructor
  · funext y
    rw [idx_eq y, transSum_eq_blocks]
    exact key.1
  · funext y
    rw [idx_eq y, rotSum_eq_blocks]
    exact key.2

end Cert.KernelIdeal.Accum

end
-- ==== Proof.Final.lean ====
/- What the kernel's two result arrays end holding. Each is a [1,1] array whose one block is written back
   at the last grid point only, from the staging buffer; so each array ends holding what that buffer holds
   after the last point. -/
import proofs.«162553_j8753143349671_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Final

open Cert.KernelIdeal Cert.KernelIdeal.Gen

variable {F : FTy → Type} [FloatOps F]
variable (m : (ℓ : Loc nD τ sig) → Buf (Elt F) ℓ)

/-- The last grid point. -/
abbrev last : Fin cfg0.N := ⟨511, by rw [show cfg0.N = 512 from N_0]; decide⟩

/-- The one write-back of the first result, at the last point, writes the staging buffer's contents: block (0, 0) of
    the [1,1] array read through zero offsets is the array. -/
theorem flushed2_eq (c : Dev nD) (G2 : Buf (Elt F) ((cfg0.win 2).arr.view.loc (c.tc : Thread nD τ)))
    (h : (outsAt0 m c last.val last.isLt).1 = G2) (t : Fin cfg0.N) (hf : (cfg0.win 2).flush t = true) :
    (dats m 0 c).flushed 2 t = ((cfg0.win 2).blk t).view.read (Elt F) G2 := by
  have hN : cfg0.N = 512 := N_0
  have h3 : t.val = 511 := by have := (flush0_2 t).mp hf; have := t.isLt; omega
  obtain rfl : t = last := Fin.ext h3
  show (cfg0.win 2).cut (grid0.coords last) ((dats m 0 c).after 2 last) = _
  rw [after0_2, h]
  have hz' : (fun a => win0_2.index last a * main_v0_0.ty.shape.size a) = fun _ => 0 :=
    funext fun a => by fin_cases a <;> decide +kernel
  exact (Memref.read_access_unit_zero (Elt F) main_v0_0 hz' (fun a => by rw [congrFun hz' a]; simp) G2).symm

/-- So the first result array ends holding what its staging buffer holds after the last point: that point's block
    covers the array. -/
theorem arr2_final (c : Dev nD) (G2 : Buf (Elt F) ((cfg0.win 2).arr.view.loc (c.tc : Thread nD τ)))
    (h : (outsAt0 m c last.val last.isLt).1 = G2) : (dats m 0 c).arrAt 2 cfg0.N = G2 :=
  (dats m 0 c).arrAt_eq_of_cover 2 G2 (flushed2_eq m c G2 h) fun i =>
    ⟨last, (flush0_2 last).mpr rfl, by
      show i ∈ ((View.whole main_v0_0).slice (win0_2.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index last 0 * win0_2.size 0 ≤ (i 0 : Nat)
          ∧ (i 0 : Nat) < win0_2.index last 0 * win0_2.size 0 + win0_2.xsize (grid0.coords last) 0
        rw [show win0_2.index last 0 * win0_2.size 0 = 0 from by decide +kernel,
          show win0_2.xsize (grid0.coords last) 0 = 1 from by decide +kernel]; omega
      | ⟨1, _⟩ =>
        show win0_2.index last 1 * win0_2.size 1 ≤ (i 1 : Nat)
          ∧ (i 1 : Nat) < win0_2.index last 1 * win0_2.size 1 + win0_2.xsize (grid0.coords last) 1
        rw [show win0_2.index last 1 * win0_2.size 1 = 0 from by decide +kernel,
          show win0_2.xsize (grid0.coords last) 1 = 1 from by decide +kernel]; omega⟩

/-- The one write-back of the second result, likewise. -/
theorem flushed3_eq (c : Dev nD) (G3 : Buf (Elt F) ((cfg0.win 3).arr.view.loc (c.tc : Thread nD τ)))
    (h : (outsAt0 m c last.val last.isLt).2.1 = G3) (t : Fin cfg0.N) (hf : (cfg0.win 3).flush t = true) :
    (dats m 0 c).flushed 3 t = ((cfg0.win 3).blk t).view.read (Elt F) G3 := by
  have hN : cfg0.N = 512 := N_0
  have h3 : t.val = 511 := by have := (flush0_3 t).mp hf; have := t.isLt; omega
  obtain rfl : t = last := Fin.ext h3
  show (cfg0.win 3).cut (grid0.coords last) ((dats m 0 c).after 3 last) = _
  rw [after0_3, h]
  have hz' : (fun a => win0_3.index last a * main_v0_1.ty.shape.size a) = fun _ => 0 :=
    funext fun a => by fin_cases a <;> decide +kernel
  exact (Memref.read_access_unit_zero (Elt F) main_v0_1 hz' (fun a => by rw [congrFun hz' a]; simp) G3).symm

/-- So the second result array ends holding what its staging buffer holds after the last point. -/
theorem arr3_final (c : Dev nD) (G3 : Buf (Elt F) ((cfg0.win 3).arr.view.loc (c.tc : Thread nD τ)))
    (h : (outsAt0 m c last.val last.isLt).2.1 = G3) : (dats m 0 c).arrAt 3 cfg0.N = G3 :=
  (dats m 0 c).arrAt_eq_of_cover 3 G3 (flushed3_eq m c G3 h) fun i =>
    ⟨last, (flush0_3 last).mpr rfl, by
      show i ∈ ((View.whole main_v0_1).slice (win0_3.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index last 0 * win0_3.size 0 ≤ (i 0 : Nat)
          ∧ (i 0 : Nat) < win0_3.index last 0 * win0_3.size 0 + win0_3.xsize (grid0.coords last) 0
        rw [show win0_3.index last 0 * win0_3.size 0 = 0 from by decide +kernel,
          show win0_3.xsize (grid0.coords last) 0 = 1 from by decide +kernel]; omega
      | ⟨1, _⟩ =>
        show win0_3.index last 1 * win0_3.size 1 ≤ (i 1 : Nat)
          ∧ (i 1 : Nat) < win0_3.index last 1 * win0_3.size 1 + win0_3.xsize (grid0.coords last) 1
        rw [show win0_3.index last 1 * win0_3.size 1 = 0 from by decide +kernel,
          show win0_3.xsize (grid0.coords last) 1 = 1 from by decide +kernel]; omega⟩

end Cert.KernelIdeal.Final

end
-- ==== Proof.Tail.lean ====
/- The host operations after the region: the two output arrays reshaped to scalars, each divided by the count
   4096 * 1024 * 3 and multiplied by its weight, and the two products added. Read off as the three results. -/
import proofs.«162553_j8753143349671_2_alg».proof.Proof.Gen.KernelIdeal.Frame
import proofs.«162553_j8753143349671_2_alg».proof.Proof.Spec
import Idealize.ShloMosaic.Lib.Pipeline.Value
import Idealize.ShloMosaic.Lib.ValueIdx
import Idealize.ShloMosaic.Lib.StableHlo.Run

noncomputable section

namespace Cert.KernelIdeal.Tail

open Idealize.ShloMosaic Idealize.ShloMosaic.ValueIdx
open Cert.KernelIdeal Cert.KernelIdeal.Gen Cert.Loss

variable (m : (ℓ : Loc nD τ sig) → Buf (Elt Ideal) ℓ)

/-- After the region the first output array holds what the pipeline's proof data say: a constant here. -/
theorem arr2 (c : Dev nD) (sT : EReal) (hT : (dats m 0 c).arrAt 2 cfg0.N = fun _ => sT) :
    Pipeline.withArrays (cfgs 0).spec c (V0 m c) (fun w => (dats m 0 c).arrAt w (cfgs 0).N) (Proc.devRef .tc main_v0_0)
      = fun _ => sT :=
  (Pipeline.withArrays_arr spec0 launch0.win.arr_inj c _ _ 2).trans hT

/-- The same for the second output array. -/
theorem arr3 (c : Dev nD) (sR : EReal) (hR : (dats m 0 c).arrAt 3 cfg0.N = fun _ => sR) :
    Pipeline.withArrays (cfgs 0).spec c (V0 m c) (fun w => (dats m 0 c).arrAt w (cfgs 0).N) (Proc.devRef .tc main_v0_1)
      = fun _ => sR :=
  (Pipeline.withArrays_arr spec0 launch0.win.arr_inj c _ _ 3).trans hR

/-- The translation loss: the first sum reshaped to a scalar, divided by the count and multiplied by the weight 1. -/
theorem v4_eq (c : Dev nD) (sT : EReal) (hT : (dats m 0 c).arrAt 2 cfg0.N = fun _ => sT) :
    Pipeline.afterTail₀ cfgs (dats m) 0 (V0 m) [hostOps1] c main_v4 = (fun _ => scaled 0x3F800000#32 sT) := by
  have h2 := arr2 m c sT hT
  unfold Pipeline.afterTail₀
  show StableHlo.after hostOps1 _ (Proc.devRef .tc main_v4) = _
  after_results
  funext i
  unfold scaled
  dsimp only [mulf, Host.divf, constant, shapeCast]
  rw [h2]
  rfl

/-- The rotation loss: the second sum reshaped to a scalar, divided by the count and multiplied by the weight 100. -/
theorem v6_eq (c : Dev nD) (sR : EReal) (hR : (dats m 0 c).arrAt 3 cfg0.N = fun _ => sR) :
    Pipeline.afterTail₀ cfgs (dats m) 0 (V0 m) [hostOps1] c main_v6 = (fun _ => scaled 0x42C80000#32 sR) := by
  have h3 := arr3 m c sR hR
  unfold Pipeline.afterTail₀
  show StableHlo.after hostOps1 _ (Proc.devRef .tc main_v6) = _
  after_results
  funext i
  unfold scaled
  dsimp only [mulf, Host.divf, constant, shapeCast]
  rw [h3]
  rfl

/-- The total: the sum of the two. -/
theorem v7_eq (c : Dev nD) (sT sR : EReal)
    (hT : (dats m 0 c).arrAt 2 cfg0.N = fun _ => sT) (hR : (dats m 0 c).arrAt 3 cfg0.N = fun _ => sR) :
    Pipeline.afterTail₀ cfgs (dats m) 0 (V0 m) [hostOps1] c main_v7
      = (fun _ => scaled 0x3F800000#32 sT + scaled 0x42C80000#32 sR) := by
  have h2 := arr2 m c sT hT
  have h3 := arr3 m c sR hR
  unfold Pipeline.afterTail₀
  show StableHlo.after hostOps1 _ (Proc.devRef .tc main_v7) = _
  after_results
  funext i
  unfold scaled
  dsimp only [addf, mulf, Host.divf, constant, shapeCast]
  rw [h2, h3]
  rfl

/-- The three results of the host operations after the region, when the two output arrays end holding the constants
    `sT` and `sR`: each sum divided by the count and multiplied by its weight, and the sum of the two. -/
theorem tail_eq (c : Dev nD) (sT sR : EReal)
    (hT : (dats m 0 c).arrAt 2 cfg0.N = fun _ => sT) (hR : (dats m 0 c).arrAt 3 cfg0.N = fun _ => sR) :
    Pipeline.afterTail₀ cfgs (dats m) 0 (V0 m) [hostOps1] c main_v7 = (fun _ => scaled 0x3F800000#32 sT + scaled 0x42C80000#32 sR)
    ∧ Pipeline.afterTail₀ cfgs (dats m) 0 (V0 m) [hostOps1] c main_v4 = (fun _ => scaled 0x3F800000#32 sT)
    ∧ Pipeline.afterTail₀ cfgs (dats m) 0 (V0 m) [hostOps1] c main_v6 = (fun _ => scaled 0x42C80000#32 sR) :=
  ⟨v7_eq m c sT sR hT hR, v4_eq m c sT hT, v6_eq m c sR hR⟩

/-- The three result buffers are unscoped and are no array of the pipeline. -/
theorem mem_v7 : main_v7 ∈ Pipeline.restRefs sig cfg0.spec := by decide
theorem mem_v4 : main_v4 ∈ Pipeline.restRefs sig cfg0.spec := by decide
theorem mem_v6 : main_v6 ∈ Pipeline.restRefs sig cfg0.spec := by decide

end Cert.KernelIdeal.Tail

end
-- ==== Proof.KernelLoss.lean ====
/- The kernel program's run, read: its three results are the specification's three losses of the argument arrays.

   The two output arrays end holding the two sums of squares over all sequences (the running sums after the last
   grid point, written back once); the host operations after the region divide each by the count, weight them and
   add them. -/
import proofs.«162553_j8753143349671_2_alg».proof.Proof.Accum
import proofs.«162553_j8753143349671_2_alg».proof.Proof.Final
import proofs.«162553_j8753143349671_2_alg».proof.Proof.Tail

noncomputable section

open Idealize.ShloMosaic Idealize.ShloMosaic.TcCoe Idealize.SL.Sem Idealize.ShloMosaic.ValueIdx
open Idealize.ShloMosaic.Pipeline (Dat)

namespace Cert.KernelIdeal.KernelLoss

open Cert.KernelIdeal Cert.KernelIdeal.Gen Cert.Loss

variable (m : (ℓ : Loc nD τ sig) → Buf (Elt Ideal) ℓ) (ρ : Dev nD → PrngReg)

/-- The grid has 512 points: 511 is one. -/
theorem last_lt : 510 + 1 < cfg0.N := by rw [show cfg0.N = 512 from N_0]; decide

/-- What the staging buffers hold after a point depends on the point's position only. -/
theorem outsAt_congr (c : Dev nD) (n n' : ℕ) (h : n = n') (hn : n < cfg0.N) (hn' : n' < cfg0.N) :
    outsAt0 m c n hn = outsAt0 m c n' hn' := by subst h; rfl

/-- After the last point the first output's staging buffer holds the sum of squared translation differences, -/
theorem trans_staged (c : Dev nD) :
    (outsAt0 m c Final.last.val Final.last.isLt).1 = (fun _ => transSum (Accum.X0 m c) (Accum.X1 m c)) :=
  (congrArg (·.1) (outsAt_congr m c Final.last.val (510 + 1) rfl Final.last.isLt last_lt)).trans (Accum.outs_last m c last_lt).1

/-- the second's the sum of squared wrapped-angle differences, -/
theorem rot_staged (c : Dev nD) :
    (outsAt0 m c Final.last.val Final.last.isLt).2.1 = (fun _ => rotSum (Accum.X0 m c) (Accum.X1 m c)) :=
  (congrArg (·.2.1) (outsAt_congr m c Final.last.val (510 + 1) rfl Final.last.isLt last_lt)).trans (Accum.outs_last m c last_lt).2

/-- and the one write-back leaves the two output arrays holding them. -/
theorem trans_array (c : Dev nD) :
    (dats m 0 c).arrAt 2 cfg0.N = fun _ => transSum (Accum.X0 m c) (Accum.X1 m c) :=
  Final.arr2_final m c _ (trans_staged m c)

theorem rot_array (c : Dev nD) :
    (dats m 0 c).arrAt 3 cfg0.N = fun _ => rotSum (Accum.X0 m c) (Accum.X1 m c) :=
  Final.arr3_final m c _ (rot_staged m c)

/-- Every weakly fair execution of the kernel program terminates with the three results at the total, the
    translation and the rotation loss of the argument arrays, and the arguments unchanged. -/
theorem run : θ_run defs (onTc (τ := τ) (main (F := Ideal))) ⟨m, fun _ => 0, ρ⟩ fun r => ∀ c : Dev nD,
      r.2.mem ((c.tc : Thread nD τ).loc main_v7) = (fun _ => totalLoss (Accum.X0 m c) (Accum.X1 m c))
      ∧ r.2.mem ((c.tc : Thread nD τ).loc main_v4) = (fun _ => transLoss (Accum.X0 m c) (Accum.X1 m c))
      ∧ r.2.mem ((c.tc : Thread nD τ).loc main_v6) = (fun _ => rotLoss (Accum.X0 m c) (Accum.X1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have tl := Tail.tail_eq m c _ _ (trans_array m c) (rot_array m c)
    ⟨((h c).2 main_v7 Tail.mem_v7).trans tl.1, ((h c).2 main_v4 Tail.mem_v4).trans tl.2.1,
      ((h c).2 main_v6 Tail.mem_v6).trans tl.2.2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelLoss

end
-- ==== Proof.lean ====
/- The kernel and its reference compute the same three losses.

   The specification (Proof/Spec.lean) states the translation loss, the rotation loss and their sum as one function of
   the two argument arrays on the extended reals. The reference's run is that function (Proof/RefLoss.lean, over the
   generated read-back of its host operations). The kernel accumulates the two sums of squares over 512 groups of eight
   sequences: what each case of its body leaves (Proof/Pieces.lean), the body's arithmetic at an index
   (Proof/Payload.lean), the blocks its windows read (Proof/Blocks.lean), the running sums after each point by
   induction (Proof/Accum.lean), the output arrays after the one write-back (Proof/Final.lean), the host operations
   after the region (Proof/Tail.lean), and the run read as the specification (Proof/KernelLoss.lean). The two ways of
   grouping the sums agree by commutativity and associativity of addition alone (Proof/Algebra.lean), so the
   precondition is not used beyond the frames. -/
import proofs.«162553_j8753143349671_2_alg».proof.Defs
import proofs.«162553_j8753143349671_2_alg».proof.Proof.Gen.Kernel
import proofs.«162553_j8753143349671_2_alg».proof.Proof.Gen.Kernel.Skeleton
import proofs.«162553_j8753143349671_2_alg».proof.Proof.Gen.Kernel.Launch
import proofs.«162553_j8753143349671_2_alg».proof.Proof.Gen.Kernel.Points
import proofs.«162553_j8753143349671_2_alg».proof.Proof.Gen.Kernel.Frame
import proofs.«162553_j8753143349671_2_alg».proof.Proof.Gen.KernelIdeal
import proofs.«162553_j8753143349671_2_alg».proof.Proof.Gen.KernelIdeal.Skeleton
import proofs.«162553_j8753143349671_2_alg».proof.Proof.Gen.KernelIdeal.Launch
import proofs.«162553_j8753143349671_2_alg».proof.Proof.Gen.KernelIdeal.Points
import proofs.«162553_j8753143349671_2_alg».proof.Proof.Gen.KernelIdeal.Frame
import proofs.«162553_j8753143349671_2_alg».proof.Proof.Gen.ReferenceIdeal
import proofs.«162553_j8753143349671_2_alg».proof.Proof.Gen.ReferenceIdeal.Run
import proofs.«162553_j8753143349671_2_alg».proof.Proof.Gen.ReferenceIdeal.Read
import proofs.«162553_j8753143349671_2_alg».proof.Proof.Gen.Pre_finite_inputs
import proofs.«162553_j8753143349671_2_alg».proof.Proof.RefLoss
import proofs.«162553_j8753143349671_2_alg».proof.Proof.KernelLoss
import Idealize.ShloMosaic.Adequacy
import Idealize.ShloMosaic.Init

noncomputable section

namespace Cert.Proof

open Idealize.ShloMosaic Idealize.SL.Sem Cert.Kernel

/-- The three frames: the two kernel programs' are generated; the reference's is its generated run with the results dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- Both programs end with the total, the translation and the rotation loss of arguments that agree. -/
theorem algebraic : Cert.algebraic_KernelIdeal_ReferenceIdeal := by
  intro m ρ m' ρ' _ hagree
  refine ⟨fun c => fun _ => Cert.Loss.totalLoss (Cert.KernelIdeal.Accum.X0 m c) (Cert.KernelIdeal.Accum.X1 m c),
    fun c => fun _ => Cert.Loss.transLoss (Cert.KernelIdeal.Accum.X0 m c) (Cert.KernelIdeal.Accum.X1 m c),
    fun c => fun _ => Cert.Loss.rotLoss (Cert.KernelIdeal.Accum.X0 m c) (Cert.KernelIdeal.Accum.X1 m c),
    Cert.KernelIdeal.KernelLoss.run m ρ, ?_⟩
  refine (θ_run Cert.ReferenceIdeal.defs _ _).mono (fun _ h c => ?_) (Cert.ReferenceIdeal.Value.run (F := Ideal) m' ρ')
  refine ⟨(h c).1.trans ?_, (h c).2.1.trans ?_, (h c).2.2.1.trans ?_, (h c).2.2.2.1, (h c).2.2.2.2⟩
  · rw [Cert.ReferenceIdeal.Read.val_main_v36_eq, Cert.ReferenceIdeal.RefLoss.total_eq, (hagree c).1, (hagree c).2]
    rfl
  · rw [Cert.ReferenceIdeal.Read.val_main_v31_eq, Cert.ReferenceIdeal.RefLoss.trans_eq, (hagree c).1, (hagree c).2]
    rfl
  · rw [Cert.ReferenceIdeal.Read.val_main_v35_eq, Cert.ReferenceIdeal.RefLoss.rot_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
